-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x1024 : Shape := ⟨3, ![16, 4096, 1024]⟩
abbrev S_ : Shape := ⟨0, ![]⟩
abbrev S1024x1024 : Shape := ⟨2, ![1024, 1024]⟩
abbrev S1024x1 : Shape := ⟨2, ![1024, 1]⟩
abbrev S1024 : Shape := ⟨1, ![1024]⟩

class Facts : Prop where
  bcast_S_S16x4096x1024 : S_.BroadcastsInDim S16x4096x1024 (![] : Fin 0 → Fin S16x4096x1024.rank)
  reducesTo_S16x4096x1024_S_d0_1_2 : S16x4096x1024.ReducesTo [0, 1, 2] S_
  h_S_ : 0 < S_.numel
  reducesTo_S_S_d : S_.ReducesTo [] S_
  bcast_S_S1024x1024 : S_.BroadcastsInDim S1024x1024 (![] : Fin 0 → Fin S1024x1024.rank)
  reducesTo_S1024x1024_S_d0_1 : S1024x1024.ReducesTo [0, 1] S_
  bcast_S_S1024x1 : S_.BroadcastsInDim S1024x1 (![] : Fin 0 → Fin S1024x1.rank)
  reducesTo_S1024x1_S_d0_1 : S1024x1.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v12 : IVec S_ 1) (main_v15 : IVec S1024x1 1) (main_c_5 : IVec S_ 1) : IVec S_ 1 :=
  let main_v16 : IVec S_ 1 := (fun x v => Host.reduce IntOp.andi x v reducesTo_S1024x1_S_d0_1 h_S_) main_v15 main_c_5
  let main_v17 : IVec S_ 1 := andi main_v12 main_v16
  let main_v18 : FVec F S1024 .f32 := Host.absf main_arg4
  let main_cst_6 : FVec F S_ .f32 := constant S_ .f32 0x7F800000#32
  let main_v19 : FVec F S1024 .f32 := broadcastInDim S1024 ![] bcast_S_S1024 main_cst_6
  let main_v20 : IVec S1024 1 := cmpf .olt main_v18 main_v19
  let main_c_7 : IVec S_ 1 := constantI S_ 1 1#1
  let main_v21 : IVec S_ 1 := (fun x v => Host.reduce IntOp.andi x v reducesTo_S1024_S_d0 h_S_) main_v20 main_c_7
  let main_v22 : IVec S_ 1 := andi main_v17 main_v21
  main_v22

def fn {F : FTy → Type} [FloatOps F] (main_arg0 : FVec F S16x4096x1024 .f32) (main_arg1 : FVec F S_ .f32) (main_arg2 : FVec F S1024x1024 .f32) (main_arg3 : FVec F S1024x1 .f32) (main_arg4 : FVec F S1024 .f32) : IVec S_ 1 :=
  let main_v0 : FVec F S16x4096x1024 .f32 := Host.absf main_arg0
  let main_cst : FVec F S_ .f32 := constant S_ .f32 0x7F800000#32
  let main_v1 : FVec F S16x4096x1024 .f32 := broadcastInDim S16x4096x1024 ![] bcast_S_S16x4096x1024 main_cst
  let main_v2 : IVec S16x4096x1024 1 := cmpf .olt main_v0 main_v1
  let main_c : IVec S_ 1 := constantI S_ 1 1#1
  let main_v3 : IVec S_ 1 := (fun x v => Host.reduce IntOp.andi x v reducesTo_S16x4096x1024_S_d0_1_2 h_S_) main_v2 main_c
  let main_v4 : FVec F S_ .f32 := Host.absf main_arg1
  let main_cst_0 : FVec F S_ .f32 := constant S_ .f32 0x7F800000#32
  let main_v5 : IVec S_ 1 := cmpf .olt main_v4 main_cst_0
  let main_c_1 : IVec S_ 1 := constantI S_ 1 1#1
  let main_v6 : IVec S_ 1 := (fun x v => Host.reduce IntOp.andi x v reducesTo_S_S_d h_S_) main_v5 main_c_1
  let main_v7 : IVec S_ 1 := andi main_v3 main_v6
  let main_v8 : FVec F S1024x1024 .f32 := Host.absf main_arg2
  let main_cst_2 : FVec F S_ .f32 := constant S_ .f32 0x7F800000#32
  let main_v9 : FVec F S1024x1024 .f32 := broadcastInDim S1024x1024 ![] bcast_S_S1024x1024 main_cst_2
  let main_v10 : IVec S1024x1024 1 := cmpf .olt main_v8 main_v9
  let main_c_3 : IVec S_ 1 := constantI S_ 1 1#1
  let main_v11 : IVec S_ 1 := (fun x v => Host.reduce IntOp.andi x v reducesTo_S1024x1024_S_d0_1 h_S_) main_v10 main_c_3
  let main_v12 : IVec S_ 1 := andi main_v7 main_v11
  let main_v13 : FVec F S1024x1 .f32 := Host.absf main_arg3
  let main_cst_4 : FVec F S_ .f32 := constant S_ .f32 0x7F800000#32
  let main_v14 : FVec F S1024x1 .f32 := broadcastInDim S1024x1 ![] bcast_S_S1024x1 main_cst_4
  let main_v15 : IVec S1024x1 1 := cmpf .olt main_v13 main_v14
  let main_c_5 : IVec S_ 1 := constantI S_ 1 1#1
  fn_part1 (F := F) main_arg4 main_v12 main_v15 main_c_5
-- ==== Kernel.lean ====
abbrev S16x4096x1024 : Shape := ⟨3, ![16, 4096, 1024]⟩
abbrev S_ : Shape := ⟨0, ![]⟩
abbrev S1024x1024 : Shape := ⟨2, ![1024, 1024]⟩
abbrev S1024x1 : Shape := ⟨2, ![1024, 1]⟩
abbrev S1024 : Shape := ⟨1, ![1024]⟩
abbrev S65536x1024 : Shape := ⟨2, ![65536, 1024]⟩
abbrev S1x1024 : Shape := ⟨2, ![1, 1024]⟩
abbrev S1x1 : Shape := ⟨2, ![1, 1]⟩

abbrev nBuf : Space → Nat
  | .hbm => 18
  | .vmem => 8
  | .smem => 0
  | _ => 0

abbrev bufTy : (tb : Table) → Fin (tcTables nBuf tb) → BufTy
  | .hbm, ⟨0, _⟩ => ⟨S16x4096x1024, .f32⟩
  | .hbm, ⟨1, _⟩ => ⟨S_, .f32⟩
  | .hbm, ⟨2, _⟩ => ⟨S1024x1024, .f32⟩
  | .hbm, ⟨3, _⟩ => ⟨S1024x1, .f32⟩
  | .hbm, ⟨4, _⟩ => ⟨S1024, .f32⟩
  | .hbm, ⟨5, _⟩ => ⟨S65536x1024, .f32⟩
  | .hbm, ⟨6, _⟩ => ⟨S1024x1, .f32⟩
  | .hbm, ⟨7, _⟩ => ⟨S1024x1, .f32⟩
  | .hbm, ⟨8, _⟩ => ⟨S1x1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1x1024, .f32⟩
  | .hbm, ⟨13, _⟩ => ⟨S1024x1024, .bf16⟩
  | .hbm, ⟨14, _⟩ => ⟨S1x1, .f32⟩
  | .hbm, ⟨15, _⟩ => ⟨S65536x1024, .f32⟩
  | .hbm, ⟨16, _⟩ => ⟨S16x4096x1024, .f32⟩
  | .hbm, ⟨17, _⟩ => ⟨S1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1x1024, .f32⟩
  | .local _ .vmem, ⟨4, _⟩ => ⟨S1x1024, .f32⟩
  | .local _ .vmem, ⟨5, _⟩ => ⟨S1x1, .f32⟩
  | .local _ .vmem, ⟨6, _⟩ => ⟨S1024x1024, .f32⟩
  | .local _ .vmem, ⟨7, _⟩ => ⟨S1024x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S16x4096x1024_S65536x1024 : S16x4096x1024.ShapeCasts S65536x1024
  bcast_S_S1024x1 : S_.BroadcastsInDim S1024x1 (![] : Fin 0 → Fin S1024x1.rank)
  shapeCasts_S1024x1_S1x1024 : S1024x1.ShapeCasts S1x1024
  bcast_S_S1024 : S_.BroadcastsInDim S1024 (![] : Fin 0 → Fin S1024.rank)
  shapeCasts_S1024_S1x1024 : S1024.ShapeCasts S1x1024
  bitsLt_bf16_f32 : FTy.bits .bf16 < FTy.bits .f32
  shapeCasts_S_S1x1 : S_.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  broadcasts_S1x1_S1024x1024 : S1x1.Broadcasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S65536x1024_S16x4096x1024 : S65536x1024.ShapeCasts S16x4096x1024
  shapeCasts_S1x1024_S1024 : S1x1024.ShapeCasts S1024
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S65536x1024.size a
  hwx0_0 : ∀ i : grid0.Coords, EltTy.bits .f32 = 32 ∨ (Rect.block (s := S65536x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S65536x1024.size a
  hwx0_5 : ∀ i : grid0.Coords, EltTy.bits .f32 = 32 ∨ (Rect.block (s := S65536x1024) S1024x1024.size (cc0_transform_5 i) (hinb0_5 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x4096x1024 : Shape := ⟨3, ![16, 4096, 1024]⟩
abbrev S_ : Shape := ⟨0, ![]⟩
abbrev S1024x1024 : Shape := ⟨2, ![1024, 1024]⟩
abbrev S1024x1 : Shape := ⟨2, ![1024, 1]⟩
abbrev S1024 : Shape := ⟨1, ![1024]⟩
abbrev S1x1x1024 : Shape := ⟨3, ![1, 1, 1024]⟩

abbrev nBuf : Space → Nat
  | .hbm => 21
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S_, .f32⟩
  | .hbm, ⟨2, _⟩ => ⟨S1024x1024, .f32⟩
  | .hbm, ⟨3, _⟩ => ⟨S1024x1, .f32⟩
  | .hbm, ⟨4, _⟩ => ⟨S1024, .f32⟩
  | .hbm, ⟨5, _⟩ => ⟨S16x4096x1024, .f32⟩
  | .hbm, ⟨6, _⟩ => ⟨S16x4096x1024, .f32⟩
  | .hbm, ⟨7, _⟩ => ⟨S16x4096x1024, .f32⟩
  | .hbm, ⟨8, _⟩ => ⟨S1024x1, .f32⟩
  | .hbm, ⟨9, _⟩ => ⟨S1024x1, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S16x4096x1024, .f32⟩
  | .hbm, ⟨15, _⟩ => ⟨S1x1x1024, .f32⟩
  | .hbm, ⟨16, _⟩ => ⟨S16x4096x1024, .f32⟩
  | .hbm, ⟨17, _⟩ => ⟨S16x4096x1024, .f32⟩
  | .hbm, ⟨18, _⟩ => ⟨S1x1x1024, .f32⟩
  | .hbm, ⟨19, _⟩ => ⟨S16x4096x1024, .f32⟩
  | .hbm, ⟨20, _⟩ => ⟨S16x4096x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]

class Facts₀ : Prop where
  bcast_S_S16x4096x1024 : S_.BroadcastsInDim S16x4096x1024 (![] : Fin 0 → Fin S16x4096x1024.rank)
  bcast_S_S1024x1 : S_.BroadcastsInDim S1024x1 (![] : Fin 0 → Fin S1024x1.rank)
  shapeCasts_S1024x1_S1024 : S1024x1.ShapeCasts S1024
  bcast_S_S1024 : S_.BroadcastsInDim S1024 (![] : Fin 0 → Fin S1024.rank)
  bcast_S1024_S1x1x1024_2 : S1024.BroadcastsInDim S1x1x1024 (![2] : Fin 1 → Fin S1x1x1024.rank)
  bcast_S1x1x1024_S16x4096x1024_0_1_2 : S1x1x1024.BroadcastsInDim S16x4096x1024 (![0, 1, 2] : Fin 3 → Fin S16x4096x1024.rank)
  dot_S16x4096x1024_S1024x1024_S16x4096x1024_2_1_01_0_n_n_wf : DotDims.WF S16x4096x1024 S1024x1024 S16x4096x1024 [2] [1] [0, 1] [0] [] []

variable [Facts₀]

def dot_S16x4096x1024_S1024x1024_S16x4096x1024_2_1_01_0_n_n : DotDims S16x4096x1024 S1024x1024 S16x4096x1024 where
  lhsContracting := [2]
  rhsContracting := [1]
  lhsNonContracting := [0, 1]
  rhsNonContracting := [0]
  lhsBatch := []
  rhsBatch := []
  wf := dot_S16x4096x1024_S1024x1024_S16x4096x1024_2_1_01_0_n_n_wf

class Facts : Prop extends Facts₀ where

variable [Facts]
-- ==== Proof.QuantSpec.lean ====
/-
  The mathematics of a quantised linear layer on the extended reals.

  An activation `x` is quantised with a per-tensor scale `s` by rounding a quotient to the nearest integer (ties to
  even); a row of quantised activations meets a row of integer weights in a dot product, a requantised bias is added,
  and the sum is rescaled by the per-channel factor `sw · s`:

      out (a, r, o) = (∑ₖ round (x (a, r, k) / s) · w (o, k) + round (b o / s)) · (sw o · s).

  One program forms the quotient as `x / s`, the other as the product `x · (1 / s)` with a reciprocal taken once.
  For `s ≠ 0` the two are the same extended real: a quotient by a nonzero divisor IS the product with its inverse, the
  infinities included, so `1 / s = s⁻¹` and `x · s⁻¹ = x / s`. At `s = 0` they differ (`0 · (1 / 0) = 0 · ⊤ = 0`
  against `0 / 0 = ⊥`), but there the rescaling factor `sw · s` is `0`, and a product with `0` is `0` whatever the
  other factor: both results are `0`. No finiteness of any input is used.

  The result is stated twice over variable extents: as one function of the five argument arrays (`outAt`), and as a
  function of the arrays a row block of it is computed from — the activations with their two leading axes merged, the
  weights, the rescaling row, the bias row and the one-entry scale (`tileAt`) — with the theorem that the second, fed
  arrays that hold what the first's arguments say, is the first (`tileAt_eq_outAt`).
-/
import Idealize.ShloMosaic.PureOps.Ideal
import Idealize.ShloMosaic.Lib.ValueIdx

noncomputable section

namespace Cert.QuantSpec

open Idealize.ShloMosaic Idealize.ShloMosaic.ValueIdx

/-- Rounding to the nearest integer, ties to even, the infinities kept. -/
def roundE (x : EReal) : EReal := Ideal.liftRound Ideal.roundHalfEven x

/-- The quantiser with the quotient formed directly. -/
def quantDiv (x s : EReal) : EReal := roundE (Ideal.div x s)

/-- The quantiser with the quotient formed as a product with the reciprocal of the scale. -/
def quantMul (x s : EReal) : EReal := roundE (x * Ideal.div 1 s)

/-- Off a zero scale the product with the reciprocal is the quotient, on every extended real. -/
theorem quantMul_eq_quantDiv {s : EReal} (hs : s ≠ 0) (x : EReal) : quantMul x s = quantDiv x s := by
  unfold quantMul quantDiv
  simp only [Ideal.div, if_neg hs, one_mul]

/-- One entry of the layer in its two spellings: equal off a zero scale because the quantisers are, and at a zero scale
    because both are then a product with `sw · 0 = 0`. -/
theorem layer_forms_agree {K : ℕ} (xs ws : Fin K → EReal) (B sw s : EReal) :
    ((∑ k : Fin K, quantMul (xs k) s * ws k) + B) * (sw * s) = ((∑ k : Fin K, quantDiv (xs k) s * ws k) + B) * (sw * s) := by
  by_cases hs : s = 0
  · subst hs
    simp only [mul_zero]
  · simp only [quantMul_eq_quantDiv hs]

variable {A B K N R : ℕ}

/-- The requantised bias `round (b o / s)`. -/
def biasAt (s : (⟨0, ![]⟩ : Shape).Idx → EReal) (b : (⟨1, ![N]⟩ : Shape).Idx → EReal) (o : Fin N) : EReal :=
  roundE (Ideal.div (b (ix1 o)) (s ix0))

/-- The per-channel rescaling factor `sw o · s`, the layer's second result, as an array. -/
def scale1 (s : (⟨0, ![]⟩ : Shape).Idx → EReal) (sw : (⟨2, ![N, 1]⟩ : Shape).Idx → EReal) :
    (⟨1, ![N]⟩ : Shape).Idx → EReal :=
  fun i => sw (ix2 (i 0) (0 : Fin 1)) * s ix0

theorem scale1_ix1 (s : (⟨0, ![]⟩ : Shape).Idx → EReal) (sw : (⟨2, ![N, 1]⟩ : Shape).Idx → EReal) (o : Fin N) :
    scale1 s sw (ix1 o) = sw (ix2 o (0 : Fin 1)) * s ix0 := rfl

/-- The layer's result at `(a, r, o)`, from the five argument arrays. -/
def outAt (x : (⟨3, ![A, B, K]⟩ : Shape).Idx → EReal) (s : (⟨0, ![]⟩ : Shape).Idx → EReal)
    (w : (⟨2, ![N, K]⟩ : Shape).Idx → EReal) (sw : (⟨2, ![N, 1]⟩ : Shape).Idx → EReal) (b : (⟨1, ![N]⟩ : Shape).Idx → EReal)
    (a : Fin A) (r : Fin B) (o : Fin N) : EReal :=
  ((∑ k : Fin K, quantDiv (x (ix3 a r k)) (s ix0) * w (ix2 o k)) + biasAt s b o) * scale1 s sw (ix1 o)

/-- The layer's result as an array. -/
def out3 (x : (⟨3, ![A, B, K]⟩ : Shape).Idx → EReal) (s : (⟨0, ![]⟩ : Shape).Idx → EReal)
    (w : (⟨2, ![N, K]⟩ : Shape).Idx → EReal) (sw : (⟨2, ![N, 1]⟩ : Shape).Idx → EReal) (b : (⟨1, ![N]⟩ : Shape).Idx → EReal) :
    (⟨3, ![A, B, N]⟩ : Shape).Idx → EReal :=
  fun i => outAt x s w sw b (i 0) (i 1) (i 2)

theorem out3_ix3 (x : (⟨3, ![A, B, K]⟩ : Shape).Idx → EReal) (s : (⟨0, ![]⟩ : Shape).Idx → EReal)
    (w : (⟨2, ![N, K]⟩ : Shape).Idx → EReal) (sw : (⟨2, ![N, 1]⟩ : Shape).Idx → EReal) (b : (⟨1, ![N]⟩ : Shape).Idx → EReal)
    (a : Fin A) (r : Fin B) (o : Fin N) : out3 x s w sw b (ix3 a r o) = outAt x s w sw b a r o := rfl

/-- The same entry computed from a block's operands: the activations as an `[R, K]` array, the weights, a rescaling row,
    a bias row and the scale as a one-entry array, the quotient formed with the reciprocal. -/
def tileAt (X : (⟨2, ![R, K]⟩ : Shape).Idx → EReal) (W : (⟨2, ![N, K]⟩ : Shape).Idx → EReal)
    (SA BI : (⟨2, ![1, N]⟩ : Shape).Idx → EReal) (SX : (⟨2, ![1, 1]⟩ : Shape).Idx → EReal) (j : Fin R) (o : Fin N) : EReal :=
  ((∑ k : Fin K, quantMul (X (ix2 j k)) (SX (ix2 (0 : Fin 1) (0 : Fin 1))) * W (ix2 o k)) + BI (ix2 (0 : Fin 1) o))
    * SA (ix2 (0 : Fin 1) o)

/-- As an array over the merged rows. -/
def tile2 (X : (⟨2, ![R, K]⟩ : Shape).Idx → EReal) (W : (⟨2, ![N, K]⟩ : Shape).Idx → EReal)
    (SA BI : (⟨2, ![1, N]⟩ : Shape).Idx → EReal) (SX : (⟨2, ![1, 1]⟩ : Shape).Idx → EReal) :
    (⟨2, ![R, N]⟩ : Shape).Idx → EReal :=
  fun i => tileAt X W SA BI SX (i 0) (i 1)

theorem tile2_ix2 (X : (⟨2, ![R, K]⟩ : Shape).Idx → EReal) (W : (⟨2, ![N, K]⟩ : Shape).Idx → EReal)
    (SA BI : (⟨2, ![1, N]⟩ : Shape).Idx → EReal) (SX : (⟨2, ![1, 1]⟩ : Shape).Idx → EReal) (j : Fin R) (o : Fin N) :
    tile2 X W SA BI SX (ix2 j o) = tileAt X W SA BI SX j o := rfl

/-- Fed operands that hold what the argument arrays say — merged row `j` of `X` is row `(a, r)` of `x`, `W` is `w`, the
    rescaling row holds `sw o · s`, the bias row the requantised bias, the one-entry array the scale — the block's entry at
    `(j, o)` is the layer's at `(a, r, o)`. -/
theorem tileAt_eq_outAt (x : (⟨3, ![A, B, K]⟩ : Shape).Idx → EReal) (s : (⟨0, ![]⟩ : Shape).Idx → EReal)
    (w : (⟨2, ![N, K]⟩ : Shape).Idx → EReal) (sw : (⟨2, ![N, 1]⟩ : Shape).Idx → EReal) (b : (⟨1, ![N]⟩ : Shape).Idx → EReal)
    (X : (⟨2, ![R, K]⟩ : Shape).Idx → EReal) (W : (⟨2, ![N, K]⟩ : Shape).Idx → EReal)
    (SA BI : (⟨2, ![1, N]⟩ : Shape).Idx → EReal) (SX : (⟨2, ![1, 1]⟩ : Shape).Idx → EReal)
    (a : Fin A) (r : Fin B) (j : Fin R)
    (hX : ∀ k : Fin K, X (ix2 j k) = x (ix3 a r k))
    (hW : ∀ (o : Fin N) (k : Fin K), W (ix2 o k) = w (ix2 o k))
    (hSA : ∀ o : Fin N, SA (ix2 (0 : Fin 1) o) = scale1 s sw (ix1 o))
    (hBI : ∀ o : Fin N, BI (ix2 (0 : Fin 1) o) = biasAt s b o)
    (hSX : SX (ix2 (0 : Fin 1) (0 : Fin 1)) = s ix0) (o : Fin N) :
    tileAt X W SA BI SX j o = outAt x s w sw b a r o := by
  unfold tileAt outAt
  rw [hSA, hBI, hSX, scale1_ix1]
  simp only [hX, hW]
  exact layer_forms_agree _ _ _ _ _

end Cert.QuantSpec

end
-- ==== Proof.RefIsSpec.lean ====
/-
  The reference program computes the layer of `QuantSpec`.

  Its first result is, index by index, `(∑ₖ round (x (a, r, k) / s) · w (o, k) + round (b o / s)) · (sw o · s)`: the quotient
  by the scale spread over the activations, the rounding, the contraction of the activations' last axis with the weights'
  last axis, the requantised bias and the rescaling factor each spread along the two leading axes through a `[1, 1, N]`
  array. Its second result is the rescaling factor `sw o · s` as a vector. Both are read one operation at a time from the
  generated stages, the composed index of each spread identified with the coordinates it keeps.
-/
import proofs.«142827_j19765439496401_2_alg».proof.Proof.Gen.ReferenceIdeal.Read
import proofs.«142827_j19765439496401_2_alg».proof.Proof.QuantSpec

noncomputable section

namespace Cert.ReferenceIdeal.RefValue

open Cert.ReferenceIdeal Cert.ReferenceIdeal.Read Idealize.ShloMosaic Idealize.ShloMosaic.ValueIdx Cert.QuantSpec

/-- The reference's first result is the layer. -/
theorem out_eq (x0 : (⟨S16x4096x1024, .f32⟩ : BufTy).Contents (Elt Ideal)) (x1 : (⟨S_, .f32⟩ : BufTy).Contents (Elt Ideal))
    (x2 : (⟨S1024x1024, .f32⟩ : BufTy).Contents (Elt Ideal)) (x3 : (⟨S1024x1, .f32⟩ : BufTy).Contents (Elt Ideal))
    (x4 : (⟨S1024, .f32⟩ : BufTy).Contents (Elt Ideal)) :
    val_main_v15 (F := Ideal) x0 x1 x2 x3 x4 = out3 (A := 16) (B := 4096) (K := 1024) (N := 1024) x0 x1 x2 x3 x4 := by
  funext i
  obtain ⟨a, r, o, rfl⟩ : ∃ (a : Fin 16) (r : Fin 4096) (o : Fin 1024), i = ix3 a r o := ⟨i 0, i 1, i 2, eq_ix3 i⟩
  have el : ∀ k : Fin 1024, lidx_main_v9 (ix3 a r o) k = ix3 a r k := fun k => funext fun ax => by
    match ax with
    | ⟨0, _⟩ => rfl
    | ⟨1, _⟩ => rfl
    | ⟨2, _⟩ => rfl
  have er : ∀ k : Fin 1024, ridx_main_v9 (ix3 a r o) k = ix2 o k := fun k => funext fun ax => by
    match ax with
    | ⟨0, _⟩ => rfl
    | ⟨1, _⟩ => rfl
  have eb : idx_main_v10 (idx_main_v11 (ix3 a r o)) = ix1 o := funext fun ax => by
    match ax with
    | ⟨0, _⟩ => rfl
  have es : idx_main_v5 (idx_main_v13 (idx_main_v14 (ix3 a r o))) = ix2 o (0 : Fin 1) := funext fun ax => Fin.ext (by
    match ax with
    | ⟨0, _⟩ => exact Nat.div_one _
    | ⟨1, _⟩ => rfl)
  rw [out3_ix3, val_main_v15_apply, val_main_v12_apply, val_main_v9_apply, val_main_v11_apply, val_main_v10_apply,
    val_main_v8_apply, val_main_v7_apply, val_main_v6_apply, val_main_v14_apply, val_main_v13_apply, val_main_v5_apply,
    val_main_v4_apply, val_main_v3_apply, eb, es]
  simp only [val_main_v2_apply, val_main_v1_apply, val_main_v0_apply, el, er, Ideal.mulf_def, Ideal.addf_def,
    Ideal.hostDivf_def, Ideal.hostUnary_roundeven_def]
  rfl

/-- The reference's second result is the rescaling factor. -/
theorem scale_eq (x1 : (⟨S_, .f32⟩ : BufTy).Contents (Elt Ideal)) (x3 : (⟨S1024x1, .f32⟩ : BufTy).Contents (Elt Ideal)) :
    val_main_v5 (F := Ideal) x1 x3 = scale1 (N := 1024) x1 x3 := by
  funext i
  obtain ⟨o, rfl⟩ : ∃ o : Fin 1024, i = ix1 o := ⟨i 0, eq_ix1 i⟩
  have es : idx_main_v5 (ix1 o) = ix2 o (0 : Fin 1) := funext fun ax => Fin.ext (by
    match ax with
    | ⟨0, _⟩ => exact Nat.div_one _
    | ⟨1, _⟩ => rfl)
  rw [scale1_ix1, val_main_v5_apply, val_main_v4_apply, val_main_v3_apply, es]
  rfl

end Cert.ReferenceIdeal.RefValue

end
-- ==== Proof.LibMergeRows.lean ====
/-
  General lemmas: small layout operations read at an index written with `ix1` / `ix2` / `ix3`, over variable extents.

  * the two leading axes of an `[a, b, c]` array merged into one axis of `r = a · b` rows, and an `[r, c]` array split
    back into `[a, b, c]`: row `p · b + q` of the merged array is row `(p, q)` of the split one (the row-major position
    is kept), so neither direction needs a quotient or a remainder;
  * a column `[a, 1]` re-laid as a row `[1, a]`;
  * a one-entry array `[1, 1]` spread over `[a, b]`, and a rank-zero array cast to `[1, 1]`;
  * a rank-zero array spread over any shape by a `broadcast_in_dim` with no dimensions.
  Nothing here mentions a program: the extents are variables and the shape evidence is a hypothesis.
-/
import Idealize.ShloMosaic.Lib.Pipeline.Value
import Idealize.ShloMosaic.Lib.ValueIdx
import Idealize.ShloMosaic.Lib.ValueLayout

namespace Cert.LibMergeRows

open Idealize.ShloMosaic Idealize.ShloMosaic.ValueIdx

variable {α : Type}

/-- Row `(p, q)` of an `[a, b, ·]` array sits at row `p · b + q` of the array with the two leading axes merged. -/
def mergeIdx {a b r : ℕ} (hr : r = a * b) (p : Fin a) (q : Fin b) : Fin r :=
  ⟨p.val * b + q.val, by
    subst hr
    exact Nat.lt_of_lt_of_le (Nat.add_lt_add_left q.isLt _)
      (by rw [← Nat.succ_mul]; exact Nat.mul_le_mul_right _ p.isLt)⟩

theorem mergeIdx_val {a b r : ℕ} (hr : r = a * b) (p : Fin a) (q : Fin b) : (mergeIdx hr p q).val = p.val * b + q.val := rfl

/-- An `[a, b, c]` array with its two leading axes merged reads, at row `p · b + q`, the operand's row `(p, q)`. -/
theorem shapeCast_abc_rc_apply {a b c r : ℕ} (x : (⟨3, ![a, b, c]⟩ : Shape).Idx → α)
    (h : (⟨3, ![a, b, c]⟩ : Shape).ShapeCasts ⟨2, ![r, c]⟩) (hr : r = a * b) (p : Fin a) (q : Fin b) (k : Fin c) :
    shapeCast ⟨2, ![r, c]⟩ x h (ix2 (mergeIdx hr p q) k) = x (ix3 p q k) :=
  shapeCast_apply x h _ _ (by
    rw [Shape.rowMajor_val_three, Shape.rowMajor_val_two]
    rfl)

/-- An `[r, c]` array with its leading axis split into `a` groups of `b` rows reads, at `(p, q)`, the operand's row
    `p · b + q`. -/
theorem shapeCast_rc_abc_apply {a b c r : ℕ} (y : (⟨2, ![r, c]⟩ : Shape).Idx → α)
    (h : (⟨2, ![r, c]⟩ : Shape).ShapeCasts ⟨3, ![a, b, c]⟩) (hr : r = a * b) (p : Fin a) (q : Fin b) (k : Fin c) :
    shapeCast ⟨3, ![a, b, c]⟩ y h (ix3 p q k) = y (ix2 (mergeIdx hr p q) k) :=
  shapeCast_apply y h _ _ (by
    rw [Shape.rowMajor_val_three, Shape.rowMajor_val_two]
    rfl)

/-- A column `[a, 1]` re-laid as a row `[1, a]` reads, at `(u, p)`, the column's entry `p`. -/
theorem shapeCast_a1_1a_apply {a : ℕ} (x : (⟨2, ![a, 1]⟩ : Shape).Idx → α)
    (h : (⟨2, ![a, 1]⟩ : Shape).ShapeCasts ⟨2, ![1, a]⟩) (u : Fin 1) (p : Fin a) :
    shapeCast ⟨2, ![1, a]⟩ x h (ix2 u p) = x (ix2 p (0 : Fin 1)) :=
  shapeCast_apply x h _ _ (by
    have hu : u.val = 0 := by omega
    rw [Shape.rowMajor_val_two, Shape.rowMajor_val_two]
    show p.val * 1 + 0 = u.val * a + p.val
    rw [hu, Nat.mul_one, Nat.add_zero, Nat.zero_mul, Nat.zero_add])

/-- A column `[a, 1]` flattened to a vector `[a]` reads, at `p`, the column's entry `p`. -/
theorem shapeCast_a1_a_apply {a : ℕ} (x : (⟨2, ![a, 1]⟩ : Shape).Idx → α)
    (h : (⟨2, ![a, 1]⟩ : Shape).ShapeCasts ⟨1, ![a]⟩) (p : Fin a) :
    shapeCast ⟨1, ![a]⟩ x h (ix1 p) = x (ix2 p (0 : Fin 1)) :=
  shapeCast_apply x h _ _ (by
    rw [Shape.rowMajor_val_two, Shape.rowMajor_val_one]
    show p.val * 1 + 0 = p.val
    rw [Nat.mul_one, Nat.add_zero])

/-- A one-entry array `[1, 1]` spread over `[a, b]` reads its one entry everywhere. -/
theorem broadcastTo_11_ab_apply {a b : ℕ} (v : (⟨2, ![1, 1]⟩ : Shape).Idx → α)
    (h : (⟨2, ![1, 1]⟩ : Shape).Broadcasts ⟨2, ![a, b]⟩) (p : Fin a) (q : Fin b) :
    broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

/-- A rank-zero array cast to `[1, 1]` reads its one entry. -/
theorem shapeCast_0_11_apply (x : (⟨0, ![]⟩ : Shape).Idx → α)
    (h : (⟨0, ![]⟩ : Shape).ShapeCasts ⟨2, ![1, 1]⟩) (u v : Fin 1) :
    shapeCast ⟨2, ![1, 1]⟩ x h (ix2 u v) = x ix0 :=
  congrArg x (eq_ix0 _)

/-- A rank-zero array spread over any shape reads its one entry everywhere. -/
theorem broadcastInDim_0_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 (fun ax => ax.elim0)

end Cert.LibMergeRows
-- ==== Proof.LibBlockOps.lean ====
/-
  General lemmas: the operations of a field-wise product of embeddings, read at an index written with `ix2` / `ix3`,
  at the ideal values.

  * an `[a, b]` array cast to `[a, b, 1]` and an `[a, b, 1]` array broadcast over `c` lanes (a per-field scalar spread
    along the embedding axis);
  * the sum over the MIDDLE axis of an `[a, b, c]` array as a sum over `Fin b`;
  * a slab of an `[a, b, c]` array cut along axis 0, and an `[a, 1, c]` array cast to `[a, c]`;
  * a matrix product `[a, k] × [b, k]` contracting both operands' LAST axes into a zero accumulator, as the sum over
    `Fin k` of the products;
  * the host's sum over the last axis of an `[a, b]` array and over the middle axis of an `[a, b, c]` array, from a
    rank-zero initial value, as that value plus the sum over the axis;
  * one field's contribution: the product of field `o`'s `[a, c]` slab of an `[a, b, c]` array with field `o`'s
    `[n, c]` slab of a `[b, n, c]` array, as the sum over the embedding axis.
  Nothing here mentions a program: the extents are variables and the dimension records are hypotheses.
-/
import Idealize.ShloMosaic.Lib.ValueLayout
import Idealize.ShloMosaic.Lib.ValueIdx
import Idealize.ShloMosaic.PureOps.Ideal.Laws

noncomputable section

namespace Cert.LibBlockOps

open Idealize.ShloMosaic Idealize.ShloMosaic.ValueIdx

variable {α : Type}

/-- An `[a, b]` array cast to `[a, b, 1]` reads, at `(p, f, u)`, the operand at `(p, f)`. -/
theorem shapeCast_ab_ab1_apply {a b : ℕ} (x : (⟨2, ![a, b]⟩ : Shape).Idx → α)
    (h : (⟨2, ![a, b]⟩ : Shape).ShapeCasts ⟨3, ![a, b, 1]⟩) (p : Fin a) (f : Fin b) (u : Fin 1) :
    shapeCast ⟨3, ![a, b, 1]⟩ x h (ix3 p f u) = x (ix2 p f) :=
  shapeCast_apply x h _ _ (by
    have hu : u.val = 0 := by omega
    rw [Shape.rowMajor_val_two, Shape.rowMajor_val_three]
    show p.val * b + f.val = (p.val * b + f.val) * 1 + u.val
    rw [hu, Nat.mul_one, Nat.add_zero])

/-- An `[a, b, 1]` array broadcast to `[a, b, c]` reads, at `(p, f, k)`, the operand at `(p, f, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (f : Fin b) (k : Fin c) :
    broadcastTo ⟨3, ![a, b, c]⟩ v h (ix3 p f k) = v (ix3 p f (0 : Fin 1)) := by
  refine broadcastTo_apply v h (ix3 p f k) (ix3 p f (0 : Fin 1)) fun ax => ?_
  match ax with
  | ⟨0, _⟩ =>
    show p.val = if a = 1 then 0 else p.val
    split
    · have := p.isLt; omega
    · rfl
  | ⟨1, _⟩ =>
    show f.val = if b = 1 then 0 else f.val
    split
    · have := f.isLt; omega
    · rfl
  | ⟨2, _⟩ => rfl

/-- The reduced index `(p, k)` of an `[a, b, c]` array with coordinate `f` put back on axis 1 is `(p, f, k)`. -/
theorem lift_mid {a b c : ℕ} (h : (⟨3, ![a, b, c]⟩ : Shape).Reduces [1] (⟨2, ![a, c]⟩ : Shape)) (p : Fin a) (k : Fin c)
    (f : Fin ((⟨3, ![a, b, c]⟩ : Shape).size 1)) : h.lift (ix2 p k) f = ix3 p (⟨f.val, f.isLt⟩ : Fin b) k := by
  funext ax; apply Fin.ext
  fin_cases ax <;> rfl

/-- The sum over the middle axis of an `[a, b, c]` array, read at `(p, k)`: the sum over `f` of the entries `(p, f, k)`. -/
theorem midSum_apply {a b c : ℕ} (src : FVec Ideal ⟨3, ![a, b, c]⟩ .f32) (acc : BitVec 32)
    (h : (⟨3, ![a, b, c]⟩ : Shape).Reduces [1] (⟨2, ![a, c]⟩ : Shape)) (hφ : FKind.Formats .f32)
    (hacc : acc = FKind.add.neutral .f32 hφ) (p : Fin a) (k : Fin c) :
    multiReduction .add [1] ⟨2, ![a, c]⟩ src acc h hφ hacc (ix2 p k) = ∑ f : Fin b, src (ix3 p f k) := by
  refine (Ideal.multiReduction_add_single src acc h hφ hacc (ix2 p k)).trans ?_
  exact Finset.sum_congr rfl fun f _ => congrArg src (lift_mid h p k f)

/-- The reduced index `p` of an `[a, b]` array with lane `c` put back on axis 1 is `(p, c)`. -/
theorem lift_last {a b : ℕ} (h : (⟨2, ![a, b]⟩ : Shape).Reduces [1] (⟨1, ![a]⟩ : Shape)) (p : Fin a)
    (c : Fin ((⟨2, ![a, b]⟩ : Shape).size 1)) : h.lift (ix1 p) c = ix2 p (⟨c.val, c.isLt⟩ : Fin b) := by
  funext ax; apply Fin.ext
  fin_cases ax <;> rfl

/-- The host's sum over the last axis of an `[a, b]` array, read at row `p`: the initial value plus the row's sum. -/
theorem hostLastSum_apply {a b : ℕ} (x : FVec Ideal ⟨2, ![a, b]⟩ .f32) (init : (⟨0, ![]⟩ : Shape).Idx → Ideal .f32)
    (h' : (⟨2, ![a, b]⟩ : Shape).ReducesTo [1] (⟨1, ![a]⟩ : Shape)) (hu : 0 < (⟨0, ![]⟩ : Shape).numel) (p : Fin a) :
    Host.reduceAdd x init h' hu (ix1 p) = init ix0 + ∑ c : Fin b, x (ix2 p c) := by
  have h : (⟨2, ![a, b]⟩ : Shape).Reduces [1] (⟨1, ![a]⟩ : Shape) := ⟨h'.1, Nat.one_pos, h'.2⟩
  show Ideal.hostReduceAdd h' x (init (Shape.Idx.first hu)) (ix1 p) = _
  rw [Ideal.hostReduceAdd_single h' h, show Shape.Idx.first hu = ix0 from eq_ix0 _]
  exact congrArg (init ix0 + ·) (Finset.sum_congr rfl fun c _ => congrArg x (lift_last h p c))

/-- The host's sum over the middle axis of an `[a, b, c]` array, read at `(p, k)`: the initial value plus the sum over
    `f` of the entries `(p, f, k)`. -/
theorem hostMidSum_apply {a b c : ℕ} (x : FVec Ideal ⟨3, ![a, b, c]⟩ .f32) (init : (⟨0, ![]⟩ : Shape).Idx → Ideal .f32)
    (h' : (⟨3, ![a, b, c]⟩ : Shape).ReducesTo [1] (⟨2, ![a, c]⟩ : Shape)) (hu : 0 < (⟨0, ![]⟩ : Shape).numel)
    (p : Fin a) (k : Fin c) :
    Host.reduceAdd x init h' hu (ix2 p k) = init ix0 + ∑ f : Fin b, x (ix3 p f k) := by
  have h : (⟨3, ![a, b, c]⟩ : Shape).Reduces [1] (⟨2, ![a, c]⟩ : Shape) := ⟨h'.1, Nat.succ_pos 1, h'.2⟩
  show Ideal.hostReduceAdd h' x (init (Shape.Idx.first hu)) (ix2 p k) = _
  rw [Ideal.hostReduceAdd_single h' h, show Shape.Idx.first hu = ix0 from eq_ix0 _]
  exact congrArg (init ix0 + ·) (Finset.sum_congr rfl fun f _ => congrArg x (lift_mid h p k f))

/-- A rank-3 array cut along axis 0 from `o` reads, at `(j, b, e)`, the source at `(k, b, e)` with `k = o + j`. -/
theorem slice3_axis0_apply {n0 n1 n2 m : ℕ} (o : ℕ) (X : (⟨3, ![n0, n1, n2]⟩ : Shape).Idx → α)
    (h : (⟨3, ![n0, n1, n2]⟩ : Shape).Slices ![o, 0, 0] ⟨3, ![m, n1, n2]⟩)
    (j : Fin m) (b : Fin n1) (e : Fin n2) (k : Fin n0) (hk : k.val = o + j.val) :
    extractStridedSlice ⟨3, ![m, n1, n2]⟩ ![o, 0, 0] X h (ix3 j b e) = X (ix3 k b e) :=
  extractStridedSlice_apply _ _ _ _ _ (fun ax => by
    match ax with
    | ⟨0, _⟩ => exact hk
    | ⟨1, _⟩ => exact (Nat.zero_add _).symm
    | ⟨2, _⟩ => exact (Nat.zero_add _).symm)

/-- An `[a, 1, c]` array cast to `[a, c]` reads, at `(p, k)`, the operand at `(p, 0, k)`. -/
theorem shapeCast_a1c_ac_apply {a c : ℕ} (x : (⟨3, ![a, 1, c]⟩ : Shape).Idx → α)
    (h : (⟨3, ![a, 1, c]⟩ : Shape).ShapeCasts ⟨2, ![a, c]⟩) (p : Fin a) (k : Fin c) :
    shapeCast ⟨2, ![a, c]⟩ x h (ix2 p k) = x (ix3 p (0 : Fin 1) k) :=
  shapeCast_apply x h _ _ (by
    rw [Shape.rowMajor_val_three, Shape.rowMajor_val_two]
    show (p.val * 1 + 0) * c + k.val = p.val * c + k.val
    rw [Nat.mul_one, Nat.add_zero])

/-- A matrix product of an `[a, k]` by a `[b, k]` array into the zero accumulator, whose dimension record contracts the
    LAST axis of each operand (the four coordinate facts), is at `(p, j)` the sum over `q` of `L (p, q) · R (j, q)`. -/
theorem matmul_zero_nt_ix2 {a k b : ℕ} {φ₁ φ₂ : FTy} (D : DotDims ⟨2, ![a, k]⟩ ⟨2, ![b, k]⟩ ⟨2, ![a, b]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (i 1).val) (hr1 : ∀ i q, (D.rhsIdx i q 1).val = (q ⟨0, by omega⟩).val)
    (prec : Option ContractPrecision) (L : FVec Ideal ⟨2, ![a, k]⟩ φ₁) (R : FVec Ideal ⟨2, ![b, k]⟩ φ₂) (p : Fin a) (j : Fin b) :
    FloatOps.matmul D prec L R (constant ⟨2, ![a, b]⟩ .f32 0x00000000#32) (ix2 p j) = ∑ q : Fin k, L (ix2 p q) * R (ix2 j q) := by
  rw [Ideal.matmul_constant_zero_apply, ← Equiv.sum_comp (contrEquiv1 D k hr hs).symm]
  refine Finset.sum_congr rfl fun q _ => ?_
  have hq := contrEquiv1_symm_val D k hr hs q
  have el : D.lhsIdx (ix2 p j) ((contrEquiv1 D k hr hs).symm q) = ix2 p q := funext fun ax => Fin.ext (by
    match ax with
    | ⟨0, _⟩ => exact hl0 _ _
    | ⟨1, _⟩ => exact (hl1 _ _).trans hq)
  have er : D.rhsIdx (ix2 p j) ((contrEquiv1 D k hr hs).symm q) = ix2 j q := funext fun ax => Fin.ext (by
    match ax with
    | ⟨0, _⟩ => exact hr0 _ _
    | ⟨1, _⟩ => exact (hr1 _ _).trans hq)
  rw [el, er]

/-- One field's contribution to a field-by-field product: field `o`'s `[a, c]` slab of `E : [a, b, c]` times field `o`'s
    `[n, c]` slab of `W : [b, n, c]`, contracted over the embedding axis into a zero accumulator, is at `(p, j)` the sum
    over `q` of `E (p, o, q) · W (o, j, q)`. -/
theorem fieldStep_apply {a b c n : ℕ} {φ₁ φ₂ : FTy} (D : DotDims ⟨2, ![a, c]⟩ ⟨2, ![n, c]⟩ ⟨2, ![a, n]⟩)
    (hr : D.contr.rank = 1) (hs : D.contr.size ⟨0, by omega⟩ = c)
    (hl0 : ∀ i q, (D.lhsIdx i q 0).val = (i 0).val) (hl1 : ∀ i q, (D.lhsIdx i q 1).val = (q ⟨0, by omega⟩).val)
    (hr0 : ∀ i q, (D.rhsIdx i q 0).val = (i 1).val) (hr1 : ∀ i q, (D.rhsIdx i q 1).val = (q ⟨0, by omega⟩).val)
    (prec : Option ContractPrecision) (E : FVec Ideal ⟨3, ![a, b, c]⟩ φ₁) (W : FVec Ideal ⟨3, ![b, n, c]⟩ φ₂) (o : ℕ) (ho : o < b)
    (h1 : (⟨3, ![a, b, c]⟩ : Shape).Slices ![0, o, 0] ⟨3, ![a, 1, c]⟩) (c1 : (⟨3, ![a, 1, c]⟩ : Shape).ShapeCasts ⟨2, ![a, c]⟩)
    (h2 : (⟨3, ![b, n, c]⟩ : Shape).Slices ![o, 0, 0] ⟨3, ![1, n, c]⟩) (c2 : (⟨3, ![1, n, c]⟩ : Shape).ShapeCasts ⟨2, ![n, c]⟩)
    (p : Fin a) (j : Fin n) :
    FloatOps.matmul D prec (shapeCast ⟨2, ![a, c]⟩ (extractStridedSlice ⟨3, ![a, 1, c]⟩ ![0, o, 0] E h1) c1)
        (shapeCast ⟨2, ![n, c]⟩ (extractStridedSlice ⟨3, ![1, n, c]⟩ ![o, 0, 0] W h2) c2)
        (constant ⟨2, ![a, n]⟩ .f32 0x00000000#32) (ix2 p j)
      = ∑ q : Fin c, E (ix3 p ⟨o, ho⟩ q) * W (ix3 ⟨o, ho⟩ j q) := by
  rw [matmul_zero_nt_ix2 D hr hs hl0 hl1 hr0 hr1]
  refine Finset.sum_congr rfl fun q _ => ?_
  rw [shapeCast_a1c_ac_apply, shapeCast_1ab_ab_apply,
    slice3_axis1_apply o E h1 p (0 : Fin 1) q ⟨o, ho⟩ rfl, slice3_axis0_apply o W h2 (0 : Fin 1) j q ⟨o, ho⟩ rfl]

end Cert.LibBlockOps

end
-- ==== Proof.KernelPayload.lean ====
import proofs.«142827_j19765439496401_2_alg».proof.Proof.Gen.KernelIdeal.Skeleton
import proofs.«142827_j19765439496401_2_alg».proof.Proof.QuantSpec
import proofs.«142827_j19765439496401_2_alg».proof.Proof.LibMergeRows
import proofs.«142827_j19765439496401_2_alg».proof.Proof.LibBlockOps
import Idealize.ShloMosaic.Lib.Pipeline.Value
import Idealize.ShloMosaic.Lib.ValueIdx
import Idealize.ShloMosaic.Lib.ValueLayout
import Idealize.ShloMosaic.PureOps.Ideal.Laws

/-
  The kernel body's arithmetic, read at an index.

  On one block of 1024 merged rows the body takes the reciprocal of the scale once, multiplies every activation by it
  and rounds (ties to even), contracts the rounded activations' last axis with the weights' last axis into a zero
  accumulator, adds the bias row and multiplies by the rescaling row. At `(p, q)` that is

      (∑ₖ round (x (p, k) · (1 / s)) · w (q, k) + bias q) · rescale q,

  the entry `tileAt` of `QuantSpec` names: the changes of float format are the identity on the extended reals, the row
  and one-entry broadcasts read row `0` and entry `(0, 0)`, and the literal `1.0` denotes the real `1`.
-/

noncomputable section

namespace Cert.KernelIdeal.BodyValue

open Cert.KernelIdeal Cert.KernelIdeal.Gen Idealize.ShloMosaic Idealize.ShloMosaic.ValueIdx Cert.QuantSpec

/-- The pattern of `1.0` denotes the real `1`. -/
theorem one_f32 : Ideal.ofBits .f32 0x3F800000#32 = 1 := by
  simp [Ideal.ofBits, Ideal.ieee, -EReal.coe_mul]; norm_num

local notation "D" => dot_S1024x1024_S1024x1024_S1024x1024_1_1_0_0_n_n

/-! The product's dimension record contracts the last axis of each operand: a result index `(p, q)` and a contracted
    position `k` read the left operand at `(p, k)` and the right at `(q, k)`. -/

theorem lhs0 (i : S1024x1024.Idx) (k : (D).contr.Idx) : ((D).lhsIdx i k 0).val = (i 0).val := by
  unfold DotDims.lhsIdx
  rw [dif_neg (show ¬(0 : Fin S1024x1024.rank) ∈ (D).lhsBatch by decide),
    dif_pos (show (0 : Fin S1024x1024.rank) ∈ (D).lhsNonContracting by decide)]
  rfl

theorem lhs1 (i : S1024x1024.Idx) (k : (D).contr.Idx) : ((D).lhsIdx i k 1).val = (k ⟨0, by decide⟩).val :=
  (D).lhsIdx_val_of_single rfl i k

theorem rhs0 (i : S1024x1024.Idx) (k : (D).contr.Idx) : ((D).rhsIdx i k 0).val = (i 1).val := by
  unfold DotDims.rhsIdx
  rw [dif_neg (show ¬(0 : Fin S1024x1024.rank) ∈ (D).rhsBatch by decide),
    dif_pos (show (0 : Fin S1024x1024.rank) ∈ (D).rhsNonContracting by decide)]
  rfl

theorem rhs1 (i : S1024x1024.Idx) (k : (D).contr.Idx) : ((D).rhsIdx i k 1).val = (k ⟨0, by decide⟩).val :=
  (D).rhsIdx_val_of_single rfl i k

/-- The body's stored value at `(p, q)` is the block's entry of the quantised layer. -/
theorem pay_apply (v0 : Vec Ideal S1x1 .f32) (v4 : Vec Ideal S1024x1024 .f32) (v10 : Vec Ideal S1024x1024 .bf16)
    (v13 v17 : Vec Ideal S1x1024 .f32) (p q : Fin 1024) :
    k0_pay1 (F := Ideal) v0 v4 v10 v13 v17 (ix2 p q)
      = tileAt (R := 1024) (K := 1024) (N := 1024) v4 v10 v17 v13 v0 p q := by
  unfold k0_pay1
  simp only [shapeCast_self, matmul]
  rw [mulf_apply, addf_apply, broadcastTo_1b_ab_apply, broadcastTo_1b_ab_apply,
    Cert.LibBlockOps.matmul_zero_nt_ix2 (D) rfl rfl lhs0 lhs1 rhs0 rhs1]
  unfold tileAt
  have hrow : ∀ k : Fin 1024,
      (truncf .bf16 (roundeven (mulf v4 (broadcastTo S1024x1024
        (divf (broadcast S1x1 (FloatOps.ofBits .f32 0x3F800000#32)) v0) broadcasts_S1x1_S1024x1024))) bitsLt_bf16_f32
        : FVec Ideal S1024x1024 .bf16) (ix2 p k) = quantMul (v4 (ix2 p k)) (v0 (ix2 (0 : Fin 1) (0 : Fin 1))) := fun k => by
    show roundE (v4 (ix2 p k) * broadcastTo S1024x1024
      (divf (broadcast S1x1 (FloatOps.ofBits (F := Ideal) .f32 0x3F800000#32)) v0) broadcasts_S1x1_S1024x1024 (ix2 p k)) = _
    rw [Cert.LibMergeRows.broadcastTo_11_ab_apply]
    show roundE (v4 (ix2 p k) * Ideal.div (Ideal.ofBits .f32 0x3F800000#32) (v0 (ix2 (0 : Fin 1) (0 : Fin 1)))) = _
    rw [one_f32]
    rfl
  simp only [hrow]

end Cert.KernelIdeal.BodyValue

end
-- ==== Proof.KernelArray.lean ====
import proofs.«142827_j19765439496401_2_alg».proof.Proof.Gen.KernelIdeal.Frame
import proofs.«142827_j19765439496401_2_alg».proof.Proof.KernelPayload
import proofs.«142827_j19765439496401_2_alg».proof.Proof.QuantSpec
import Idealize.ShloMosaic.Lib.Pipeline.Value
import Idealize.ShloMosaic.Lib.ValueIdx

/-
  The kernel's output array after the run, as one function of what its input windows hold.

  The grid has 64 points; point `t` works on rows `1024 · t … 1024 · t + 1023` of the merged activations and of the
  output, and on the one block of each of the other four operands. What it writes back is therefore the block of ONE
  function of the whole arrays — at merged row `j` and channel `o` the quantised layer's entry computed from row `j` —
  and the 64 blocks cover the 65536 rows, so after the run the output array is that function.
-/

noncomputable section

namespace Cert.KernelIdeal.ArrayValue

open Cert.KernelIdeal Cert.KernelIdeal.Gen Idealize.ShloMosaic Idealize.ShloMosaic.TcCoe Idealize.SL.Sem
open Idealize.ShloMosaic.Pipeline (Dat)
open Idealize.ShloMosaic.ValueIdx Cert.QuantSpec Cert.KernelIdeal.BodyValue

variable (m : (ℓ : Loc nD τ sig) → Buf (Elt Ideal) ℓ)

theorem offsets_zero : (![0, 0] : Fin 2 → Nat) = fun _ => 0 := funext fun a => by fin_cases a <;> rfl

/-- The output window's whole array as one function of the five input windows' arrays as the region finds them: at
    merged row `j` and channel `o` the quantised layer's entry computed from row `j` of the activations. -/
def tileArr (c : Dev nD) : S65536x1024.Idx → EReal :=
  tile2 (R := 65536) (K := 1024) (N := 1024) (V m c main_v0) (V m c main_v8) (V m c main_v3) (V m c main_v7) (V m c main_v9)

/-- The printed index maps over the 64 grid points: the activations' block moves with the output's block along the
    rows, every other input window stays on its one block, and the output's block index stays below 64. -/
theorem idx_facts : ∀ t : Fin cfg0.N, win0_0.index t (0 : Fin 2) = win0_5.index t (0 : Fin 2)
    ∧ win0_0.index t (1 : Fin 2) = 0 ∧ win0_5.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 63 :=
  (by decide +kernel : ∀ t : Fin grid0.N, _)

/-- Every block of 1024 rows is some point's. -/
theorem idx_onto : ∀ b : Fin 64, ∃ t : Fin cfg0.N, win0_5.index t = ![b.val, 0] :=
  (by decide +kernel : ∀ b : Fin 64, ∃ t : Fin grid0.N, win0_5.index t = ![b.val, 0])

/-! ## Each input window's block, read where the output's block says -/

theorem read_x (c : Dev nD) (t : Fin cfg0.N) (p k : Fin 1024) (j : Fin 65536)
    (hj : j.val = win0_5.index t (0 : Fin 2) * 1024 + p.val) :
    iblk m c 0 t (ix2 p k) = (V m c main_v0 : S65536x1024.Idx → EReal) (ix2 j k) := by
  obtain ⟨e00, e01, e51, e10, e11, e20, e21, e30, e31, e40, e41, e5b⟩ := idx_facts t
  show (V m c main_v0 : S65536x1024.Idx → EReal) (((cfg0.win 0).blk t).view.emb (ix2 p k)) = _
  refine congrArg (V m c main_v0 : S65536x1024.Idx → EReal) (funext fun a => Fin.ext ?_)
  match a with
  | ⟨0, _⟩ => show win0_0.index t (0 : Fin 2) * 1024 + 1 * p.val = j.val; omega
  | ⟨1, _⟩ => show win0_0.index t (1 : Fin 2) * 1024 + 1 * k.val = k.val; omega

theorem read_w (c : Dev nD) (t : Fin cfg0.N) (q k : Fin 1024) :
    iblk m c 1 t (ix2 q k) = (V m c main_v8 : S1024x1024.Idx → EReal) (ix2 q k) := by
  obtain ⟨e00, e01, e51, e10, e11, e20, e21, e30, e31, e40, e41, e5b⟩ := idx_facts t
  show (V m c main_v8 : S1024x1024.Idx → EReal) (((cfg0.win 1).blk t).view.emb (ix2 q k)) = _
  refine congrArg (V m c main_v8 : S1024x1024.Idx → EReal) (funext fun a => Fin.ext ?_)
  match a with
  | ⟨0, _⟩ => show win0_1.index t (0 : Fin 2) * 1024 + 1 * q.val = q.val; omega
  | ⟨1, _⟩ => show win0_1.index t (1 : Fin 2) * 1024 + 1 * k.val = k.val; omega

theorem read_sa (c : Dev nD) (t : Fin cfg0.N) (q : Fin 1024) :
    iblk m c 2 t (ix2 (0 : Fin 1) q) = (V m c main_v3 : S1x1024.Idx → EReal) (ix2 (0 : Fin 1) q) := by
  obtain ⟨e00, e01, e51, e10, e11, e20, e21, e30, e31, e40, e41, e5b⟩ := idx_facts t
  show (V m c main_v3 : S1x1024.Idx → EReal) (((cfg0.win 2).blk t).view.emb (ix2 (0 : Fin 1) q)) = _
  refine congrArg (V m c main_v3 : S1x1024.Idx → EReal) (funext fun a => Fin.ext ?_)
  match a with
  | ⟨0, _⟩ => show win0_2.index t (0 : Fin 2) * 1 + 1 * 0 = 0; omega
  | ⟨1, _⟩ => show win0_2.index t (1 : Fin 2) * 1024 + 1 * q.val = q.val; omega

theorem read_bi (c : Dev nD) (t : Fin cfg0.N) (q : Fin 1024) :
    iblk m c 3 t (ix2 (0 : Fin 1) q) = (V m c main_v7 : S1x1024.Idx → EReal) (ix2 (0 : Fin 1) q) := by
  obtain ⟨e00, e01, e51, e10, e11, e20, e21, e30, e31, e40, e41, e5b⟩ := idx_facts t
  show (V m c main_v7 : S1x1024.Idx → EReal) (((cfg0.win 3).blk t).view.emb (ix2 (0 : Fin 1) q)) = _
  refine congrArg (V m c main_v7 : S1x1024.Idx → EReal) (funext fun a => Fin.ext ?_)
  match a with
  | ⟨0, _⟩ => show win0_3.index t (0 : Fin 2) * 1 + 1 * 0 = 0; omega
  | ⟨1, _⟩ => show win0_3.index t (1 : Fin 2) * 1024 + 1 * q.val = q.val; omega

theorem read_sx (c : Dev nD) (t : Fin cfg0.N) :
    iblk m c 4 t (ix2 (0 : Fin 1) (0 : Fin 1)) = (V m c main_v9 : S1x1.Idx → EReal) (ix2 (0 : Fin 1) (0 : Fin 1)) := by
  obtain ⟨e00, e01, e51, e10, e11, e20, e21, e30, e31, e40, e41, e5b⟩ := idx_facts t
  show (V m c main_v9 : S1x1.Idx → EReal) (((cfg0.win 4).blk t).view.emb (ix2 (0 : Fin 1) (0 : Fin 1))) = _
  refine congrArg (V m c main_v9 : S1x1.Idx → EReal) (funext fun a => Fin.ext ?_)
  match a with
  | ⟨0, _⟩ => show win0_4.index t (0 : Fin 2) * 1 + 1 * 0 = 0; omega
  | ⟨1, _⟩ => show win0_4.index t (1 : Fin 2) * 1 + 1 * 0 = 0; omega

/-! ## What a point writes back -/

/-- The body's stored value at `y` of point `t`'s block is the whole-array function at that block's element `y`. -/
theorem block_entry (c : Dev nD) (t : Fin cfg0.N) (y : S1024x1024.Idx) :
    k0_pay1 (F := Ideal) (iblk m c 4 t) (iblk m c 0 t) (iblk m c 1 t) (iblk m c 3 t) (iblk m c 2 t) y
      = tileArr m c (((cfg0.win 5).blk t).view.emb y) := by
  obtain ⟨p, q, rfl⟩ : ∃ (p q : Fin 1024), y = ix2 p q := ⟨y 0, y 1, eq_ix2 y⟩
  obtain ⟨e00, e01, e51, e10, e11, e20, e21, e30, e31, e40, e41, e5b⟩ := idx_facts t
  have hp : p.val < 1024 := p.isLt
  obtain ⟨j, hj⟩ : ∃ j : Fin 65536, j.val = win0_5.index t (0 : Fin 2) * 1024 + p.val := ⟨⟨_, by omega⟩, rfl⟩
  have hemb : ((cfg0.win 5).blk t).view.emb (ix2 p q) = ix2 j q := funext fun a => Fin.ext (by
    match a with
    | ⟨0, _⟩ => show win0_5.index t (0 : Fin 2) * 1024 + 1 * p.val = j.val; omega
    | ⟨1, _⟩ => show win0_5.index t (1 : Fin 2) * 1024 + 1 * q.val = q.val; omega)
  rw [hemb]
  refine (pay_apply (iblk m c 4 t) (iblk m c 0 t) (iblk m c 1 t) (iblk m c 3 t) (iblk m c 2 t) p q).trans ?_
  show tileAt (iblk m c 0 t) (iblk m c 1 t) (iblk m c 2 t) (iblk m c 3 t) (iblk m c 4 t) p q
    = tileAt (V m c main_v0) (V m c main_v8) (V m c main_v3) (V m c main_v7) (V m c main_v9) j q
  unfold tileAt
  rw [read_sa m c t q, read_bi m c t q, read_sx m c t]
  simp only [read_x m c t p _ j hj, read_w m c t q]

/-- WHAT POINT `t` WRITES BACK is block `t` of the whole-array function. -/
theorem flushed_eq (c : Dev nD) (t : Fin cfg0.N) :
    (dats m 0 c).flushed 5 t = ((cfg0.win 5).blk t).view.read (Elt Ideal) (tileArr m c) := by
  show (cfg0.win 5).cut (grid0.coords t) ((dats m 0 c).after 5 t) = _
  rw [after0_5]
  unfold out0_5
  rw [View.canon_unit_zero offsets_zero]
  simp only [View.ld_unit_zero (S := S1x1) offsets_zero, View.ld_unit_zero (S := S1024x1024) offsets_zero,
    View.ld_unit_zero (S := S1x1024) offsets_zero]
  funext y
  exact block_entry m c t y

/-! ## The array after the run -/

/-- An index of the output array is in point `t`'s block iff each coordinate is in the block's range on its axis. -/
theorem mem_blk (t : Fin cfg0.N) (i : S65536x1024.Idx) :
    i ∈ ((cfg0.win 5).blk t).view.set ↔ ∀ a : Fin 2, win0_5.index t a * S1024x1024.size a ≤ (i a).val
      ∧ (i a).val < win0_5.index t a * S1024x1024.size a + S1024x1024.size a := by
  show i ∈ ((View.whole main_v10).slice (win0_5.rect t)).set ↔ _
  rw [View.set_slice_whole, Rect.mem_set_unit]
  exact Iff.rfl

/-- Row `r` of the output lies in the block of the point whose block index is `r / 1024`. -/
theorem cover (i : S65536x1024.Idx) :
    ∃ t : Fin cfg0.N, (cfg0.win 5).flush t = true ∧ i ∈ ((cfg0.win 5).blk t).view.set := by
  have hi0 : (i 0).val < 65536 := (i 0).isLt
  have hi1 : (i 1).val < 1024 := (i 1).isLt
  obtain ⟨t, ht⟩ := idx_onto ⟨(i 0).val / 1024, by omega⟩
  have q0 : win0_5.index t (0 : Fin 2) = (i 0).val / 1024 := congrFun ht 0
  have q1 : win0_5.index t (1 : Fin 2) = 0 := congrFun ht 1
  refine ⟨t, flush0_5 t, ?_⟩
  rw [mem_blk]
  intro a
  match a with
  | ⟨0, _⟩ =>
    show win0_5.index t (0 : Fin 2) * 1024 ≤ (i 0).val ∧ (i 0).val < win0_5.index t (0 : Fin 2) * 1024 + 1024
    omega
  | ⟨1, _⟩ =>
    show win0_5.index t (1 : Fin 2) * 1024 ≤ (i 1).val ∧ (i 1).val < win0_5.index t (1 : Fin 2) * 1024 + 1024
    omega

/-- THE OUTPUT ARRAY after the run is the whole-array function: every point writes its block of it, and the blocks cover
    the array. -/
theorem final5 (c : Dev nD) : (dats m 0 c).arrAt 5 cfg0.N = tileArr m c :=
  (dats m 0 c).arrAt_eq_of_cover 5 (tileArr m c) (fun t _ => flushed_eq m c t) cover

end Cert.KernelIdeal.ArrayValue

end
-- ==== Proof.KernelEntry.lean ====
/-
  What the kernel's five input windows hold when the region is entered, read at an index.

  Before the region the program re-lays its arguments: the activations `[16, 4096, 1024]` with the two leading axes
  merged into `65536` rows (row `a · 4096 + r` is row `(a, r)`); the weights unchanged (a change of float format is the
  identity on the extended reals); the rescaling factor `sw o · s`, computed as a column, re-laid as a row; the
  requantised bias `round (b o / s)`, computed as a vector, re-laid as a row; and the scale as a one-entry array.
-/
import proofs.«142827_j19765439496401_2_alg».proof.Proof.Gen.KernelIdeal.Frame
import proofs.«142827_j19765439496401_2_alg».proof.Proof.LibMergeRows
import proofs.«142827_j19765439496401_2_alg».proof.Proof.QuantSpec
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx Cert.QuantSpec Cert.LibMergeRows

variable (m : (ℓ : Loc nD τ sig) → Buf (Elt Ideal) ℓ)

/-- The merged activations have `16 · 4096` rows. -/
theorem rows_eq : 65536 = 16 * 4096 := by norm_num

/-! ## Each window's array as the host operations' term of the arguments -/

theorem v0_eq (c : Dev nD) : (V m c main_v0 : S65536x1024.Idx → EReal)
    = shapeCast S65536x1024 (m ((c : Thread nD τ).loc main_arg0)) shapeCasts_S16x4096x1024_S65536x1024 := by
  dsimp only [Gen.V, Gen.V0]
  simp only [Gen.hostOps0, Gen.hostOps0_1, Gen.hostOps0_2, List.flatten_cons, List.flatten_nil, List.append_nil,
    List.cons_append, List.nil_append]
  after_results <;> rfl

theorem v8_eq (c : Dev nD) : @Eq (S1024x1024.Idx → EReal) (V m c main_v8)
    (truncf (F := Ideal) (φ := .f32) .bf16 (m ((c : Thread nD τ).loc main_arg2)) bitsLt_bf16_f32) := by
  dsimp only [Gen.V, Gen.V0]
  simp only [Gen.hostOps0, Gen.hostOps0_1, Gen.hostOps0_2, List.flatten_cons, List.flatten_nil, List.append_nil,
    List.cons_append, List.nil_append]
  after_results <;> rfl

theorem v3_eq (c : Dev nD) : @Eq (S1x1024.Idx → EReal) (V m c main_v3)
    (shapeCast S1x1024 (mulf (F := Ideal) (φ := .f32) (m ((c : Thread nD τ).loc main_arg3))
        (broadcastInDim S1024x1 ![] bcast_S_S1024x1 (m ((c : Thread nD τ).loc main_arg1)))) shapeCasts_S1024x1_S1x1024) := by
  dsimp only [Gen.V, Gen.V0]
  simp only [Gen.hostOps0, Gen.hostOps0_1, Gen.hostOps0_2, List.flatten_cons, List.flatten_nil, List.append_nil,
    List.cons_append, List.nil_append]
  after_results <;> rfl

theorem v7_eq (c : Dev nD) : @Eq (S1x1024.Idx → EReal) (V m c main_v7)
    (shapeCast S1x1024 (Host.roundeven (F := Ideal) (φ := .f32) (Host.divf (F := Ideal) (φ := .f32) (m ((c : Thread nD τ).loc main_arg4))
        (broadcastInDim S1024 ![] bcast_S_S1024 (m ((c : Thread nD τ).loc main_arg1))))) shapeCasts_S1024_S1x1024) := by
  dsimp only [Gen.V, Gen.V0]
  simp only [Gen.hostOps0, Gen.hostOps0_1, Gen.hostOps0_2, List.flatten_cons, List.flatten_nil, List.append_nil,
    List.cons_append, List.nil_append]
  after_results <;> rfl

theorem v9_eq (c : Dev nD) : (V m c main_v9 : S1x1.Idx → EReal)
    = shapeCast S1x1 (m ((c : Thread nD τ).loc main_arg1)) shapeCasts_S_S1x1 := by
  dsimp only [Gen.V, Gen.V0]
  simp only [Gen.hostOps0, Gen.hostOps0_1, Gen.hostOps0_2, List.flatten_cons, List.flatten_nil, List.append_nil,
    List.cons_append, List.nil_append]
  after_results <;> rfl

/-! ## Read at an index -/

/-- Merged row `a · 4096 + r` of the activations' window is row `(a, r)` of the argument. -/
theorem entry_x (c : Dev nD) (a : Fin 16) (r : Fin 4096) (k : Fin 1024) :
    (V m c main_v0 : S65536x1024.Idx → EReal) (ix2 (mergeIdx rows_eq a r) k)
      = (m ((c : Thread nD τ).loc main_arg0) : S16x4096x1024.Idx → EReal) (ix3 a r k) :=
  (congrFun (v0_eq m c) _).trans (shapeCast_abc_rc_apply _ _ rows_eq a r k)

/-- The weights' window holds the weights. -/
theorem entry_w (c : Dev nD) (o k : Fin 1024) :
    (V m c main_v8 : S1024x1024.Idx → EReal) (ix2 o k)
      = (m ((c : Thread nD τ).loc main_arg2) : S1024x1024.Idx → EReal) (ix2 o k) :=
  congrFun (v8_eq m c) _

/-- The rescaling row holds `sw o · s`. -/
theorem entry_sa (c : Dev nD) (o : Fin 1024) :
    (V m c main_v3 : S1x1024.Idx → EReal) (ix2 (0 : Fin 1) o)
      = scale1 (N := 1024) (m ((c : Thread nD τ).loc main_arg1)) (m ((c : Thread nD τ).loc main_arg3)) (ix1 o) := by
  refine (congrFun (v3_eq m c) _).trans ?_
  refine (shapeCast_a1_1a_apply _ _ (0 : Fin 1) o).trans ?_
  rw [mulf_apply, broadcastInDim_0_apply]
  rfl

/-- The bias row holds the requantised bias `round (b o / s)`. -/
theorem entry_bi (c : Dev nD) (o : Fin 1024) :
    (V m c main_v7 : S1x1024.Idx → EReal) (ix2 (0 : Fin 1) o)
      = biasAt (N := 1024) (m ((c : Thread nD τ).loc main_arg1)) (m ((c : Thread nD τ).loc main_arg4)) o := by
  refine (congrFun (v7_eq m c) _).trans ?_
  refine (shapeCast_a_1a_apply _ _ (0 : Fin 1) o).trans ?_
  show roundE (Ideal.div (m ((c : Thread nD τ).loc main_arg4) (ix1 o))
    (broadcastInDim S1024 ![] bcast_S_S1024 (m ((c : Thread nD τ).loc main_arg1)) (ix1 o))) = _
  rw [broadcastInDim_0_apply]
  rfl

/-- The one-entry window holds the scale. -/
theorem entry_sx (c : Dev nD) :
    (V m c main_v9 : S1x1.Idx → EReal) (ix2 (0 : Fin 1) (0 : Fin 1))
      = (m ((c : Thread nD τ).loc main_arg1) : S_.Idx → EReal) ix0 :=
  (congrFun (v9_eq m c) _).trans (shapeCast_0_11_apply _ _ 0 0)

end Cert.KernelIdeal.Entry

end
-- ==== Proof.KernelRun.lean ====
/-
  The kernel program's run, with its two results named.

  After the region the program splits the output's 65536 merged rows back into `[16, 4096]` — row `(a, r)` is merged
  row `a · 4096 + r`, the row the activations' row `(a, r)` went to — and flattens the rescaling row into a vector.
  With what the input windows hold (the re-laid arguments) put into the whole-array function of the output window, the
  first result is the quantised layer `out3` of the five arguments and the second the rescaling factor `scale1`: the one
  place where the two programs' arithmetic differs, `x · (1 / s)` against `x / s`, is closed by `QuantSpec`'s law.
-/
import proofs.«142827_j19765439496401_2_alg».proof.Proof.Gen.KernelIdeal.Frame
import proofs.«142827_j19765439496401_2_alg».proof.Proof.KernelArray
import proofs.«142827_j19765439496401_2_alg».proof.Proof.KernelEntry
import proofs.«142827_j19765439496401_2_alg».proof.Proof.QuantSpec
import proofs.«142827_j19765439496401_2_alg».proof.Proof.LibMergeRows
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.RunValue

open Cert.KernelIdeal Cert.KernelIdeal.Gen Idealize.ShloMosaic Idealize.ShloMosaic.TcCoe Idealize.SL.Sem
open Idealize.ShloMosaic.StableHlo
open Idealize.ShloMosaic.Pipeline (Dat)
open Idealize.ShloMosaic.ValueIdx Cert.QuantSpec Cert.LibMergeRows
open Cert.KernelIdeal.Entry Cert.KernelIdeal.ArrayValue

variable (m : (ℓ : Loc nD τ sig) → Buf (Elt Ideal) ℓ) (ρ : Dev nD → PrngReg)

/-! ## The values -/

/-- The output window's whole-array function, its merged rows split back, is the layer of the five arguments. -/
theorem split_out (c : Dev nD) :
    shapeCast S16x4096x1024 (tileArr m c) shapeCasts_S65536x1024_S16x4096x1024
      = out3 (A := 16) (B := 4096) (K := 1024) (N := 1024) (m ((c : Thread nD τ).loc main_arg0)) (m ((c : Thread nD τ).loc main_arg1)) (m ((c : Thread nD τ).loc main_arg2)) (m ((c : Thread nD τ).loc main_arg3)) (m ((c : Thread nD τ).loc main_arg4)) := by
  funext i
  obtain ⟨a, r, o, rfl⟩ : ∃ (a : Fin 16) (r : Fin 4096) (o : Fin 1024), i = ix3 a r o := ⟨i 0, i 1, i 2, eq_ix3 i⟩
  rw [shapeCast_rc_abc_apply _ _ rows_eq a r o, out3_ix3]
  show tileAt (V m c main_v0) (V m c main_v8) (V m c main_v3) (V m c main_v7) (V m c main_v9) (mergeIdx rows_eq a r) o = _
  exact tileAt_eq_outAt _ _ _ _ _ _ _ _ _ _ a r (mergeIdx rows_eq a r) (fun k => entry_x m c a r k)
    (fun o k => entry_w m c o k) (fun o => entry_sa m c o) (fun o => entry_bi m c o) (entry_sx m c) o

/-- The rescaling row flattened is the rescaling factor of the arguments. -/
theorem flat_scale (c : Dev nD) :
    shapeCast S1024 (V m c main_v3 : S1x1024.Idx → EReal) shapeCasts_S1x1024_S1024 = scale1 (N := 1024) (m ((c : Thread nD τ).loc main_arg1)) (m ((c : Thread nD τ).loc main_arg3)) := by
  funext i
  obtain ⟨o, rfl⟩ : ∃ o : Fin 1024, i = ix1 o := ⟨i 0, eq_ix1 i⟩
  rw [shapeCast_1a_a_apply]
  exact entry_sa m c o

/-! ## The two results after the lines that follow the region -/

theorem tail_out (c : Dev nD) :
    Pipeline.afterTail₀ cfgs (dats m) 0 (V0 m) [hostOps1] c main_v11
      = shapeCast S16x4096x1024 ((dats m 0 c).arrAt 5 cfg0.N) shapeCasts_S65536x1024_S16x4096x1024 := by
  unfold Pipeline.afterTail₀
  show StableHlo.after hostOps1 _ (Proc.devRef .tc main_v11) = _
  after_results
  exact congrArg (fun z => shapeCast S16x4096x1024 z shapeCasts_S65536x1024_S16x4096x1024)
    (Pipeline.withArrays_arr spec0 launch0.win.arr_inj c _ _ 5)

theorem tail_scale (c : Dev nD) :
    Pipeline.afterTail₀ cfgs (dats m) 0 (V0 m) [hostOps1] c main_v12
      = shapeCast S1024 ((dats m 0 c).arrAt 2 cfg0.N) shapeCasts_S1x1024_S1024 := by
  unfold Pipeline.afterTail₀
  show StableHlo.after hostOps1 _ (Proc.devRef .tc main_v12) = _
  after_results
  exact congrArg (fun z => shapeCast S1024 z shapeCasts_S1x1024_S1024)
    (Pipeline.withArrays_arr spec0 launch0.win.arr_inj c _ _ 2)

/-- The first result: the layer. -/
theorem kernel_out (c : Dev nD) :
    Pipeline.afterTail₀ cfgs (dats m) 0 (V0 m) [hostOps1] c main_v11 = out3 (A := 16) (B := 4096) (K := 1024) (N := 1024) (m ((c : Thread nD τ).loc main_arg0)) (m ((c : Thread nD τ).loc main_arg1)) (m ((c : Thread nD τ).loc main_arg2)) (m ((c : Thread nD τ).loc main_arg3)) (m ((c : Thread nD τ).loc main_arg4)) := by
  rw [tail_out, final5]
  exact split_out m c

/-- The second result: the rescaling factor (the rescaling row is an input window's array: it ends as it was found). -/
theorem kernel_scale (c : Dev nD) :
    Pipeline.afterTail₀ cfgs (dats m) 0 (V0 m) [hostOps1] c main_v12 = scale1 (N := 1024) (m ((c : Thread nD τ).loc main_arg1)) (m ((c : Thread nD τ).loc main_arg3)) := by
  rw [tail_scale, (dats m 0 c).arrAt_in 2 rfl _, A_eq]
  exact flat_scale m c

/-! ## The run -/

/-- Every weakly fair execution of the kernel program ends with its first result at the layer of the arguments, its second
    at the rescaling factor, and the arguments unchanged. -/
theorem run : θ_run defs (onTc (τ := τ) (main (F := Ideal))) ⟨m, fun _ => 0, ρ⟩ fun r => ∀ c : Dev nD,
      r.2.mem ((c : Thread nD τ).loc main_v11) = out3 (A := 16) (B := 4096) (K := 1024) (N := 1024) (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v12) = scale1 (N := 1024) (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c =>
    ⟨((h c).2 main_v11 (Pipeline.mem_restRefs_of main_v11 (by decide) (by decide))).trans (kernel_out m c),
      ((h c).2 main_v12 (Pipeline.mem_restRefs_of main_v12 (by decide) (by decide))).trans (kernel_scale m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.RunValue

end
-- ==== Proof.lean ====
/-
  A quantised linear layer: a fused kernel against its plain reference, on the extended reals.

  Both programs take activations `x : [16, 4096, 1024]`, a scalar activation scale `s`, integer-valued weights
  `w : [1024, 1024]`, a per-channel weight scale `sw : [1024, 1]` and an integer-valued bias `b : [1024]`, and return

      out (a, r, o) = (∑ₖ round (x (a, r, k) / s) · w (o, k) + round (b o / s)) · (sw o · s)      and      sw o · s.

  The reference computes this directly. The kernel merges the two leading axes of `x` into 65536 rows, re-lays the
  rescaling factor and the requantised bias as rows, and works on 64 blocks of 1024 rows: in each it forms the reciprocal
  `1 / s` once, multiplies the activations by it, rounds, contracts with the weights, adds the bias row and multiplies
  by the rescaling row; the blocks are written back side by side and the rows split again.

  Read at the ideal values the two agree on every input. The changes of float format are the identity, a product into a
  zero accumulator is the host's contraction, and the one arithmetic difference — `x · (1 / s)` against `x / s` — is none
  off `s = 0` (a quotient by a nonzero divisor is the product with its inverse, infinities included) and is multiplied by
  `sw · 0 = 0` at `s = 0`. So the precondition (finite inputs) is never opened.

  The three frames are the generated ones (the reference's is its generated run with the results dropped); the
  idealization rewrote nothing, so `preserves` is `True`.
-/
import proofs.«142827_j19765439496401_2_alg».proof.Defs
import proofs.«142827_j19765439496401_2_alg».proof.Proof.Gen.Kernel
import proofs.«142827_j19765439496401_2_alg».proof.Proof.Gen.Kernel.Skeleton
import proofs.«142827_j19765439496401_2_alg».proof.Proof.Gen.Kernel.Launch
import proofs.«142827_j19765439496401_2_alg».proof.Proof.Gen.Kernel.Points
import proofs.«142827_j19765439496401_2_alg».proof.Proof.Gen.Kernel.Frame
import proofs.«142827_j19765439496401_2_alg».proof.Proof.Gen.KernelIdeal
import proofs.«142827_j19765439496401_2_alg».proof.Proof.Gen.KernelIdeal.Skeleton
import proofs.«142827_j19765439496401_2_alg».proof.Proof.Gen.KernelIdeal.Launch
import proofs.«142827_j19765439496401_2_alg».proof.Proof.Gen.KernelIdeal.Points
import proofs.«142827_j19765439496401_2_alg».proof.Proof.Gen.KernelIdeal.Frame
import proofs.«142827_j19765439496401_2_alg».proof.Proof.Gen.ReferenceIdeal
import proofs.«142827_j19765439496401_2_alg».proof.Proof.Gen.ReferenceIdeal.Run
import proofs.«142827_j19765439496401_2_alg».proof.Proof.Gen.ReferenceIdeal.Read
import proofs.«142827_j19765439496401_2_alg».proof.Proof.Gen.Pre_finite_inputs
import proofs.«142827_j19765439496401_2_alg».proof.Proof.RefIsSpec
import proofs.«142827_j19765439496401_2_alg».proof.Proof.KernelRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealized kernel ends at the layer and the rescaling factor of its arguments, the reference at the same two
    functions of its own; the arguments agree. -/
theorem algebraic : Cert.algebraic_KernelIdeal_ReferenceIdeal := by
  intro m ρ m' ρ' _ hagree
  refine ⟨_, _, Cert.KernelIdeal.RunValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v15_eq, Cert.ReferenceIdeal.RefValue.out_eq, (hagree c).1, (hagree c).2.1,
      (hagree c).2.2.1, (hagree c).2.2.2.1, (hagree c).2.2.2.2]
  · rw [Cert.ReferenceIdeal.Read.val_main_v5_eq, Cert.ReferenceIdeal.RefValue.scale_eq, (hagree c).2.1,
      (hagree c).2.2.2.1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
